-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x4096 : Shape := ⟨3, ![16, 512, 4096]⟩
abbrev S16x512x1024 : Shape := ⟨3, ![16, 512, 1024]⟩
abbrev S1024x4096 : Shape := ⟨2, ![1024, 4096]⟩
abbrev S1024 : Shape := ⟨1, ![1024]⟩
abbrev S_ : Shape := ⟨0, ![]⟩

class Facts : Prop where
  bcast_S_S16x512x4096 : S_.BroadcastsInDim S16x512x4096 (![] : Fin 0 → Fin S16x512x4096.rank)
  reducesTo_S16x512x4096_S_d0_1_2 : S16x512x4096.ReducesTo [0, 1, 2] S_
  h_S_ : 0 < S_.numel
  bcast_S_S16x512x1024 : S_.BroadcastsInDim S16x512x1024 (![] : Fin 0 → Fin S16x512x1024.rank)
  reducesTo_S16x512x1024_S_d0_1_2 : S16x512x1024.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x512x4096 .f32) (main_arg1 : FVec F S16x512x1024 .f32) (main_arg2 : FVec F S1024x4096 .f32) (main_arg3 : FVec F S1024 .f32) (main_arg4 : FVec F S1024 .f32) (main_arg5 : FVec F S1024 .f32) : IVec S_ 1 :=
  let main_v0 : FVec F S16x512x4096 .f32 := Host.absf main_arg0
  let main_cst : FVec F S_ .f32 := constant S_ .f32 0x7F800000#32
  let main_v1 : FVec F S16x512x4096 .f32 := broadcastInDim S16x512x4096 ![] bcast_S_S16x512x4096 main_cst
  let main_v2 : IVec S16x512x4096 1 := cmpf .olt main_v0 main_v1
  let main_c : IVec S_ 1 := constantI S_ 1 1#1
  let main_v3 : IVec S_ 1 := (fun x v => Host.reduce IntOp.andi x v reducesTo_S16x512x4096_S_d0_1_2 h_S_) main_v2 main_c
  let main_v4 : FVec F S16x512x1024 .f32 := Host.absf main_arg1
  let main_cst_0 : FVec F S_ .f32 := constant S_ .f32 0x7F800000#32
  let main_v5 : FVec F S16x512x1024 .f32 := broadcastInDim S16x512x1024 ![] bcast_S_S16x512x1024 main_cst_0
  let main_v6 : IVec S16x512x1024 1 := cmpf .olt main_v4 main_v5
  let main_c_1 : IVec S_ 1 := constantI S_ 1 1#1
  let main_v7 : IVec S_ 1 := (fun x v => Host.reduce IntOp.andi x v reducesTo_S16x512x1024_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16x512x4096 : Shape := ⟨3, ![16, 512, 4096]⟩
abbrev S16x512x1024 : Shape := ⟨3, ![16, 512, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S8192x4096 : Shape := ⟨2, ![8192, 4096]⟩
abbrev S8192x1024 : Shape := ⟨2, ![8192, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 24
  | .vmem => 11
  | .smem => 0
  | _ => 0

abbrev bufTy : (tb : Table) → Fin (tcTables nBuf tb) → BufTy
  | .hbm, ⟨0, _⟩ => ⟨S16x512x4096, .f32⟩
  | .hbm, ⟨1, _⟩ => ⟨S16x512x1024, .f32⟩
  | .hbm, ⟨2, _⟩ => ⟨S1024x4096, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S1024x4096, .bf16⟩
  | .hbm, ⟨17, _⟩ => ⟨S8192x4096, .f32⟩
  | .hbm, ⟨18, _⟩ => ⟨S8192x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S16x512x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v6 : BitVec 32 := Scalar.muli arg1 c1024_i32
  v6
def k0_off1 (i : grid0.Coords) : Fin 2 → Nat :=
  let c0_2 : Index := 0#32
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  ![0, v8.toNat]
def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bitsLt_bf16_f32 : FTy.bits .bf16 < FTy.bits .f32
  shapeCasts_S16x512x4096_S8192x4096 : S16x512x4096.ShapeCasts S8192x4096
  shapeCasts_S16x512x1024_S8192x1024 : S16x512x1024.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S8192x1024_S16x512x1024 : S8192x1024.ShapeCasts S16x512x1024
  dot_S512x1024_S1024x1024_S512x1024_1_1_0_0_n_n_wf : DotDims.WF S512x1024 S1024x1024 S512x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v9) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x512x4096 : Shape := ⟨3, ![16, 512, 4096]⟩
abbrev S16x512x1024 : Shape := ⟨3, ![16, 512, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S1x1x1024 : Shape := ⟨3, ![1, 1, 1024]⟩
abbrev S16x512 : Shape := ⟨2, ![16, 512]⟩
abbrev S16x512x1 : Shape := ⟨3, ![16, 512, 1]⟩

abbrev nBuf : Space → Nat
  | .hbm => 50
  | .vmem => 0
  | .smem => 0
  | _ => 0

abbrev bufTy : (tb : Table) → Fin (tcTables nBuf tb) → BufTy
  | .hbm, ⟨0, _⟩ => ⟨S16x512x4096, .f32⟩
  | .hbm, ⟨1, _⟩ => ⟨S16x512x1024, .f32⟩
  | .hbm, ⟨2, _⟩ => ⟨S1024x4096, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S16x512x1024, .f32⟩
  | .hbm, ⟨17, _⟩ => ⟨S1x1x1024, .f32⟩
  | .hbm, ⟨18, _⟩ => ⟨S16x512x1024, .f32⟩
  | .hbm, ⟨19, _⟩ => ⟨S16x512x1024, .f32⟩
  | .hbm, ⟨20, _⟩ => ⟨S16x512x1024, .f32⟩
  | .hbm, ⟨21, _⟩ => ⟨S_, .f32⟩
  | .hbm, ⟨22, _⟩ => ⟨S16x512, .f32⟩
  | .hbm, ⟨23, _⟩ => ⟨S16x512x1, .f32⟩
  | .hbm, ⟨24, _⟩ => ⟨S_, .f32⟩
  | .hbm, ⟨25, _⟩ => ⟨S16x512x1, .f32⟩
  | .hbm, ⟨26, _⟩ => ⟨S16x512x1, .f32⟩
  | .hbm, ⟨27, _⟩ => ⟨S16x512x1024, .f32⟩
  | .hbm, ⟨28, _⟩ => ⟨S16x512x1024, .f32⟩
  | .hbm, ⟨29, _⟩ => ⟨S16x512x1024, .f32⟩
  | .hbm, ⟨30, _⟩ => ⟨S_, .f32⟩
  | .hbm, ⟨31, _⟩ => ⟨S16x512, .f32⟩
  | .hbm, ⟨32, _⟩ => ⟨S16x512x1, .f32⟩
  | .hbm, ⟨33, _⟩ => ⟨S_, .f32⟩
  | .hbm, ⟨34, _⟩ => ⟨S16x512x1, .f32⟩
  | .hbm, ⟨35, _⟩ => ⟨S16x512x1, .f32⟩
  | .hbm, ⟨36, _⟩ => ⟨S16x512x1024, .f32⟩
  | .hbm, ⟨37, _⟩ => ⟨S16x512x1024, .f32⟩
  | .hbm, ⟨38, _⟩ => ⟨S1x1x1024, .f32⟩
  | .hbm, ⟨39, _⟩ => ⟨S16x512x1024, .f32⟩
  | .hbm, ⟨40, _⟩ => ⟨S16x512x1024, .f32⟩
  | .hbm, ⟨41, _⟩ => ⟨S_, .f32⟩
  | .hbm, ⟨42, _⟩ => ⟨S16x512x1, .f32⟩
  | .hbm, ⟨43, _⟩ => ⟨S16x512x1, .f32⟩
  | .hbm, ⟨44, _⟩ => ⟨S16x512x1, .f32⟩
  | .hbm, ⟨45, _⟩ => ⟨S16x512x1024, .f32⟩
  | .hbm, ⟨46, _⟩ => ⟨S16x512x1024, .f32⟩
  | .hbm, ⟨47, _⟩ => ⟨S1x1x1024, .f32⟩
  | .hbm, ⟨48, _⟩ => ⟨S16x512x1024, .f32⟩
  | .hbm, ⟨49, _⟩ => ⟨S16x512x1024, .f32⟩
  | _, _ => ⟨S16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S1024_S1x1x1024_2 : S1024.BroadcastsInDim S1x1x1024 (![2] : Fin 1 → Fin S1x1x1024.rank)
  bcast_S1x1x1024_S16x512x1024_0_1_2 : S1x1x1024.BroadcastsInDim S16x512x1024 (![0, 1, 2] : Fin 3 → Fin S16x512x1024.rank)
  reducesTo_S16x512x1024_S16x512_d2 : S16x512x1024.ReducesTo [2] S16x512
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S16x512x1_S16x512x1024_0_1_2 : S16x512x1.BroadcastsInDim S16x512x1024 (![0, 1, 2] : Fin 3 → Fin S16x512x1024.rank)
  dot_S16x512x4096_S1024x4096_S16x512x1024_2_1_01_0_n_n_wf : DotDims.WF S16x512x4096 S1024x4096 S16x512x1024 [2] [1] [0, 1] [0] [] []

variable [Facts₀]

def dot_S16x512x4096_S1024x4096_S16x512x1024_2_1_01_0_n_n : DotDims S16x512x4096 S1024x4096 S16x512x1024 where
  lhsContracting := [2]
  rhsContracting := [1]
  lhsNonContracting := [0, 1]
  rhsNonContracting := [0]
  lhsBatch := []
  rhsBatch := []
  wf := dot_S16x512x4096_S1024x4096_S16x512x1024_2_1_01_0_n_n_wf

class Facts : Prop extends Facts₀ where

variable [Facts]
-- ==== Proof.Pieces.lean ====
/-
  What one run of the kernel body leaves behind, as values.

  The body keeps a running `[512, 1024]` accumulator in a scratch buffer. At every grid point it adds to it the product of
  the point's `[512, 1024]` block of activations with the matching 1024 columns of the resident `[1024, 4096]` weight
  matrix (all 1024 rows); at the first point of a row block (K-step 0) it first overwrites the accumulator with zeros; at
  the last (K-step 3) it also writes the output block: the normalised rows of accumulator + bias + residual.
  Here each of these is read back as ONE pure term of the buffers' contents: the accumulator after a point is
  `step` of the activations, the weight chunk and the accumulator before (the zero block at K-step 0), and the output
  block at K-step 3 is `finish` of the accumulator just stored and the four other operands.
-/
import proofs.«126355_j90692529422554_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Pieces

open Cert.KernelIdeal Cert.KernelIdeal.Gen

variable {F : FTy → Type} [FloatOps F]

theorem hz : (![0, 0] : Fin 2 → Nat) = fun _ => 0 := funext fun a => by fin_cases a <;> rfl

/-- The chunk of the weight matrix grid point `i` multiplies by: all 1024 rows, the 1024 columns from the point's offset. -/
abbrev wchunk (i : grid0.Coords) (x1 : Vec F S1024x4096 .bf16) : Vec F S1024x1024 .bf16 :=
  View.ld x1 (Rect.unit (s := S1024x4096) (k0_off1 i) S1024x1024.size (k0_off1_inb i))

/-- One accumulation step: the accumulator `acc` plus the product of the activation block with the weight chunk. -/
abbrev step (i : grid0.Coords) (x0 : Vec F S512x1024 .f32) (x1 : Vec F S1024x4096 .bf16) (acc : Vec F S512x1024 .f32) :
    Vec F S512x1024 .f32 :=
  k0_pay2 x0 (wchunk i x1) acc

/-- At a K-step that is neither first nor last the accumulator ends one step on from what the point before left. -/
theorem sout_B (c : Dev nD) (i : grid0.Coords) (arg2 : Memref sig .tc .vmem S512x1024 .f32) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x1024 .f32) (x1 : Vec F S1024x4096 .bf16) (x2 : Vec F S1x1024 .f32) (x3 : Vec F S512x1024 .f32) (x4 : Vec F S1x1024 .f32) (x5 : Vec F S1x1024 .f32) (xs0 : Vec F S512x1024 .f32) :
    sout0_B_0 c i arg2 harg2 arg3 harg3 arg4 harg4 arg5 harg5 arg6 harg6 arg7 harg7 arg8 harg8 arg9 harg9 hc0 hc1 x0 x1 x2 x3 x4 x5 xs0 = step i x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  rw [View.canon_unit_zero hz]
  simp only [View.readAt_eq_ld, harg2.read_unread, harg3.read_unread, harg9.read_unread, View.ld_unit_zero (S := S512x1024) hz]

/-- The same at the last K-step, -/
theorem sout_C (c : Dev nD) (i : grid0.Coords) (arg2 : Memref sig .tc .vmem S512x1024 .f32) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1024 .f32) (x1 : Vec F S1024x4096 .bf16) (x2 : Vec F S1x1024 .f32) (x3 : Vec F S512x1024 .f32) (x4 : Vec F S1x1024 .f32) (x5 : Vec F S1x1024 .f32) (xs0 : Vec F S512x1024 .f32) :
    sout0_C_0 c i arg2 harg2 arg3 harg3 arg4 harg4 arg5 harg5 arg6 harg6 arg7 harg7 arg8 harg8 arg9 harg9 hc0 hc1 x0 x1 x2 x3 x4 x5 xs0 = step i x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg9.read_unread, View.ld_unit_zero (S := S512x1024) hz]
  rfl

/-- and at the last K-step the output block is `finish` of that accumulator and the bias, residual, gain and shift. -/
theorem out_C (c : Dev nD) (i : grid0.Coords) (arg2 : Memref sig .tc .vmem S512x1024 .f32) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1024 .f32) (x1 : Vec F S1024x4096 .bf16) (x2 : Vec F S1x1024 .f32) (x3 : Vec F S512x1024 .f32) (x4 : Vec F S1x1024 .f32) (x5 : Vec F S1x1024 .f32) (xs0 : Vec F S512x1024 .f32) :
    out0_C_6 c i arg2 harg2 arg3 harg3 arg4 harg4 arg5 harg5 arg6 harg6 arg7 harg7 arg8 harg8 arg9 harg9 hc0 hc1 x0 x1 x2 x3 x4 x5 xs0 = k0_pay3 (step i x0 x1 xs0) x2 x3 x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz, View.readCov_unit_zero (S := S512x1024) _ hz]
  simp only [View.readAt_eq_ld, harg2.read_unread, harg3.read_unread, harg4.read_unread, harg5.read_unread, harg6.read_unread,
    harg7.read_unread, harg9.read_unread, View.ld_unit_zero (S := S512x1024) hz, View.ld_unit_zero (S := S1x1024) hz]
  rfl

/-- At the first K-step the accumulator is first overwritten with the zero block, then stepped. -/
theorem sout_A (c : Dev nD) (i : grid0.Coords) (arg2 : Memref sig .tc .vmem S512x1024 .f32) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x1024 .f32) (x1 : Vec F S1024x4096 .bf16) (x2 : Vec F S1x1024 .f32) (x3 : Vec F S512x1024 .f32) (x4 : Vec F S1x1024 .f32) (x5 : Vec F S1x1024 .f32) :
    sout0_A_0 c i arg2 harg2 arg3 harg3 arg4 harg4 arg5 harg5 arg6 harg6 arg7 harg7 arg8 harg8 arg9 harg9 hc0 hc1 x0 x1 x2 x3 x4 x5 = step i x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x1024) hz, View.readCov_unit_zero (S := S512x1024) _ hz]
  simp only [View.readAt_eq_ld, harg2.read_unread, harg3.read_unread, View.ld_unit_zero (S := S512x1024) hz]
  rfl

end Cert.Pieces

end
-- ==== Proof.Blocks.lean ====
/-
  Where each block sits in its array.

  The grid has 64 points, numbered row-major over 16 row blocks and 4 K-steps: point `t` is row block `t / 4`, K-step
  `t % 4`. At point `t` the activations' window holds rows `512·(t/4) … +511` and columns `1024·(t%4) … +1023` of the
  `[8192, 4096]` array; the residual's and the output's windows hold rows `512·(t/4) … +511` of their `[8192, 1024]`
  arrays, all 1024 columns; the weight matrix and the three `[1, 1024]` rows are resident whole; and the chunk of the
  weight matrix the body multiplies by is columns `1024·(t%4) … +1023` of all 1024 rows.
-/
import proofs.«126355_j90692529422554_2_alg».proof.Proof.Pieces
import Idealize.ShloMosaic.Lib.ValueIdx

set_option maxRecDepth 16384

noncomputable section

open Idealize.ShloMosaic Idealize.ShloMosaic.TcCoe Idealize.SL.Sem Idealize.ShloMosaic.ValueIdx

namespace Cert.Blocks

open Cert.KernelIdeal Cert.KernelIdeal.Gen Cert.Pieces

variable {F : FTy → Type} [FloatOps F]
variable (m : (ℓ : Loc nD τ sig) → Buf (Elt F) ℓ)

/-- The block indices of the seven windows and the weight chunk's offsets, at every grid point. -/
theorem idx_facts : ∀ t : Fin cfg0.N,
    (win0_0.index t 0 = t.val / 4 ∧ win0_0.index t 1 = t.val % 4)
    ∧ (win0_1.index t 0 = 0 ∧ win0_1.index t 1 = 0)
    ∧ (win0_2.index t 0 = 0 ∧ win0_2.index t 1 = 0)
    ∧ (win0_3.index t 0 = t.val / 4 ∧ win0_3.index t 1 = 0)
    ∧ (win0_4.index t 0 = 0 ∧ win0_4.index t 1 = 0)
    ∧ (win0_5.index t 0 = 0 ∧ win0_5.index t 1 = 0)
    ∧ (win0_6.index t 0 = t.val / 4 ∧ win0_6.index t 1 = 0)
    ∧ (k0_off1 (grid0.coords t) 0 = 0 ∧ k0_off1 (grid0.coords t) 1 = 1024 * (t.val % 4)) :=
  (by decide +kernel : ∀ t : Fin grid0.N, _)

theorem t_lt (t : Fin cfg0.N) : t.val < 64 := lt_of_lt_of_eq t.isLt (show cfg0.N = 64 from N_0)

/-- The row of the `[8192, ·]` arrays that row `p` of point `t`'s blocks is. -/
def grow (t : Fin cfg0.N) (p : Fin 512) : Fin 8192 := ⟨512 * (t.val / 4) + p.val, by have := t_lt t; have := p.isLt; omega⟩
/-- The column of the `[·, 4096]` arrays that column `k` of point `t`'s K-chunk is. -/
def gcol (t : Fin cfg0.N) (k : Fin 1024) : Fin 4096 := ⟨1024 * (t.val % 4) + k.val, by have := k.isLt; omega⟩

/-- The activations' block. -/
theorem iblk0_apply (c : Dev nD) (t : Fin cfg0.N) (p : Fin 512) (k : Fin 1024) :
    (iblk m c 0 t : Vec F S512x1024 .f32) (ix2 p k) = V m c main_v9 (ix2 (grow t p) (gcol t k)) := by
  have hi := (idx_facts t).1
  unfold iblk
  rw [View.read_apply]
  show V m c main_v9 _ = V m c main_v9 _
  congr 1
  funext a
  apply Fin.ext
  match a with
  | ⟨0, _⟩ => show win0_0.index t 0 * 512 + 1 * p.val = 512 * (t.val / 4) + p.val; rw [hi.1]; omega
  | ⟨1, _⟩ => show win0_0.index t 1 * 1024 + 1 * k.val = 1024 * (t.val % 4) + k.val; rw [hi.2]; omega

/-- The residual's block. -/
theorem iblk3_apply (c : Dev nD) (t : Fin cfg0.N) (p : Fin 512) (o : Fin 1024) :
    (iblk m c 3 t : Vec F S512x1024 .f32) (ix2 p o) = V m c main_v10 (ix2 (grow t p) o) := by
  have hi := (idx_facts t).2.2.2.1
  unfold iblk
  rw [View.read_apply]
  show V m c main_v10 _ = V m c main_v10 _
  congr 1
  funext a
  apply Fin.ext
  match a with
  | ⟨0, _⟩ => show win0_3.index t 0 * 512 + 1 * p.val = 512 * (t.val / 4) + p.val; rw [hi.1]; omega
  | ⟨1, _⟩ => show win0_3.index t 1 * 1024 + 1 * o.val = o.val; rw [hi.2]; omega

/-- The bias row, resident whole. -/
theorem iblk2_apply (c : Dev nD) (t : Fin cfg0.N) (u : Fin 1) (o : Fin 1024) :
    (iblk m c 2 t : Vec F S1x1024 .f32) (ix2 u o) = V m c main_v11 (ix2 u o) := by
  have hi := (idx_facts t).2.2.1
  unfold iblk
  rw [View.read_apply]
  show V m c main_v11 _ = V m c main_v11 _
  congr 1
  funext a
  apply Fin.ext
  match a with
  | ⟨0, _⟩ => show win0_2.index t 0 * 1 + 1 * u.val = u.val; rw [hi.1]; omega
  | ⟨1, _⟩ => show win0_2.index t 1 * 1024 + 1 * o.val = o.val; rw [hi.2]; omega

/-- The gain row. -/
theorem iblk4_apply (c : Dev nD) (t : Fin cfg0.N) (u : Fin 1) (o : Fin 1024) :
    (iblk m c 4 t : Vec F S1x1024 .f32) (ix2 u o) = V m c main_v12 (ix2 u o) := by
  have hi := (idx_facts t).2.2.2.2.1
  unfold iblk
  rw [View.read_apply]
  show V m c main_v12 _ = V m c main_v12 _
  congr 1
  funext a
  apply Fin.ext
  match a with
  | ⟨0, _⟩ => show win0_4.index t 0 * 1 + 1 * u.val = u.val; rw [hi.1]; omega
  | ⟨1, _⟩ => show win0_4.index t 1 * 1024 + 1 * o.val = o.val; rw [hi.2]; omega

/-- The shift row. -/
theorem iblk5_apply (c : Dev nD) (t : Fin cfg0.N) (u : Fin 1) (o : Fin 1024) :
    (iblk m c 5 t : Vec F S1x1024 .f32) (ix2 u o) = V m c main_v13 (ix2 u o) := by
  have hi := (idx_facts t).2.2.2.2.2.1
  unfold iblk
  rw [View.read_apply]
  show V m c main_v13 _ = V m c main_v13 _
  congr 1
  funext a
  apply Fin.ext
  match a with
  | ⟨0, _⟩ => show win0_5.index t 0 * 1 + 1 * u.val = u.val; rw [hi.1]; omega
  | ⟨1, _⟩ => show win0_5.index t 1 * 1024 + 1 * o.val = o.val; rw [hi.2]; omega

/-- The weight chunk of point `t`: entry `(q, k)` is the weight matrix at row `q`, column `1024·(t%4) + k`. -/
theorem wchunk_apply (c : Dev nD) (t : Fin cfg0.N) (q : Fin 1024) (k : Fin 1024) :
    wchunk (grid0.coords t) (iblk m c 1 t : Vec F S1024x4096 .bf16) (ix2 q k) = V m c main_v8 (ix2 q (gcol t k)) := by
  have hi := (idx_facts t).2.1
  have ho := (idx_facts t).2.2.2.2.2.2.2
  unfold iblk
  show (((cfg0.win 1).blk t).view.read (Elt F) (V m c main_v8)) _ = _
  rw [View.read_apply]
  show V m c main_v8 _ = V m c main_v8 _
  congr 1
  funext a
  apply Fin.ext
  match a with
  | ⟨0, _⟩ => show win0_1.index t 0 * 1024 + 1 * (k0_off1 (grid0.coords t) 0 + 1 * q.val) = q.val; rw [hi.1, ho.1]; omega
  | ⟨1, _⟩ => show win0_1.index t 1 * 4096 + 1 * (k0_off1 (grid0.coords t) 1 + 1 * k.val) = 1024 * (t.val % 4) + k.val; rw [hi.2, ho.2]; omega

end Cert.Blocks

end
-- ==== Proof.Spec.lean ====
/-
  The function both programs compute, entry by entry, over the extended reals.

  A row `h` of 4096 activations meets the 1024 rows of a weight matrix `wq` (one inner product per output column), a
  bias and a residual row are added, and the resulting row of 1024 entries is normalised: its mean is subtracted, the
  centred entries are scaled by a per-column gain and by the reciprocal square root of the mean squared deviation plus a
  small constant, and a per-column shift is added. Nothing here asks the entries to be finite: only sums, products and the
  two total functions `Ideal.div` and `Ideal.rsqrt` occur, and the two programs build the same expression up to the
  grouping of the 4096-term inner product.

  The same function is written twice: over the `[16, 512, ·]` arrays the programs take and return (`out3`), and over their
  `[8192, ·]` re-layouts, rows numbered `512 · p + s`, with the three per-column vectors as `[1, 1024]` rows (`out2`).
-/
import Idealize.ShloMosaic.PureOps.Ideal.Laws
import Idealize.ShloMosaic.Lib.ValueIdx

noncomputable section

open scoped BigOperators

namespace Cert.Spec

open Idealize.ShloMosaic Idealize.ShloMosaic.ValueIdx

/-- The f32 word of 1024, the length of a normalised row, as an extended real. -/
abbrev c1024 : EReal := Ideal.ofBits .f32 0x44800000#32
/-- The f32 word of the small constant added under the square root. -/
abbrev eps : EReal := Ideal.ofBits .f32 0x2B8CBCCC#32

/-- The mean of a row of 1024 entries: their sum divided by 1024. -/
def mean (x : Fin 1024 → EReal) : EReal := Ideal.div (∑ o : Fin 1024, x o) c1024

/-- The normalised row: entry `o` is `g o · (x o − mean x) · rsqrt (mean of squared deviations + eps) + be o`. -/
def lnRow (x g be : Fin 1024 → EReal) (o : Fin 1024) : EReal :=
  (g o * (x o - mean x)) * Ideal.rsqrt (mean (fun o' => (x o' - mean x) * (x o' - mean x)) + eps) + be o

/-- Rows that agree entry by entry have the same normalised row. -/
theorem lnRow_congr {x x' g be : Fin 1024 → EReal} (h : ∀ o, x o = x' o) : lnRow x g be = lnRow x' g be := by
  rw [show x = x' from funext h]

/-- The row before normalisation, over the `[16, 512, ·]` arrays: inner product of the activations at `(p, s)` with row `o`
    of the weights, plus the bias, plus the residual. -/
def pre3 (hs : (⟨3, ![16, 512, 4096]⟩ : Shape).Idx → EReal) (inp : (⟨3, ![16, 512, 1024]⟩ : Shape).Idx → EReal)
    (wq : (⟨2, ![1024, 4096]⟩ : Shape).Idx → EReal) (b : (⟨1, ![1024]⟩ : Shape).Idx → EReal)
    (p : Fin 16) (s : Fin 512) (o : Fin 1024) : EReal :=
  (∑ i : Fin 4096, hs (ix3 p s i) * wq (ix2 o i) + b (ix1 o)) + inp (ix3 p s o)

/-- THE RESULT over the `[16, 512, 1024]` layout. -/
def out3 (hs : (⟨3, ![16, 512, 4096]⟩ : Shape).Idx → EReal) (inp : (⟨3, ![16, 512, 1024]⟩ : Shape).Idx → EReal)
    (wq : (⟨2, ![1024, 4096]⟩ : Shape).Idx → EReal) (b g be : (⟨1, ![1024]⟩ : Shape).Idx → EReal)
    (p : Fin 16) (s : Fin 512) (o : Fin 1024) : EReal :=
  lnRow (pre3 hs inp wq b p s) (fun o' => g (ix1 o')) (fun o' => be (ix1 o')) o

/-- The row before normalisation over the `[8192, ·]` layout, the bias a `[1, 1024]` row. -/
def pre2 (H : (⟨2, ![8192, 4096]⟩ : Shape).Idx → EReal) (R : (⟨2, ![8192, 1024]⟩ : Shape).Idx → EReal)
    (wq : (⟨2, ![1024, 4096]⟩ : Shape).Idx → EReal) (brow : (⟨2, ![1, 1024]⟩ : Shape).Idx → EReal)
    (r : Fin 8192) (o : Fin 1024) : EReal :=
  (∑ i : Fin 4096, H (ix2 r i) * wq (ix2 o i) + brow (ix2 (0 : Fin 1) o)) + R (ix2 r o)

/-- The result over the `[8192, 1024]` layout. -/
def out2 (H : (⟨2, ![8192, 4096]⟩ : Shape).Idx → EReal) (R : (⟨2, ![8192, 1024]⟩ : Shape).Idx → EReal)
    (wq : (⟨2, ![1024, 4096]⟩ : Shape).Idx → EReal) (brow grow berow : (⟨2, ![1, 1024]⟩ : Shape).Idx → EReal)
    (r : Fin 8192) (o : Fin 1024) : EReal :=
  lnRow (pre2 H R wq brow r) (fun o' => grow (ix2 (0 : Fin 1) o')) (fun o' => berow (ix2 (0 : Fin 1) o')) o

end Cert.Spec

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.Payloads.lean ====
/-
  The three arrays the kernel body stores, read at one entry, over the extended reals.

  The body keeps a `[512, 1024]` accumulator. At the first step of the contraction axis it stores zeros; at every step it adds to
  the accumulator the product of a `[512, 1024]` block of activations with a `[1024, 1024]` block of weights, contracting the last
  axis of both (entry `(p, q)` gains `∑ k, x[p, k] · w[q, k]`; the narrowing of the activations to a shorter format is the identity
  over the extended reals); at the last step it adds the bias row and the residual block and normalises each row of 1024 entries:
  subtract the row's mean, scale by the gain and by the reciprocal square root of the mean squared deviation plus a small constant,
  add the shift. The three theorems `pay1_apply`, `pay2_apply`, `pay3_apply` say exactly that, entry by entry; the last one's right
  side is the specification's normalised row `Cert.Spec.lnRow`.

  The normalisation is read in pieces: the row before normalisation (`pre`), the column of row means (`meanCol`: a lane sum kept
  as a `[512, 1]` column and divided by the word of 1024), the centred rows (`centred`), and the column of reciprocal square roots
  (`rstdCol`). The stored array is their composition by definitional unfolding (`pay3_eq`).
-/
import proofs.«126355_j90692529422554_2_alg».proof.Proof.Gen.KernelIdeal.Skeleton
import proofs.«126355_j90692529422554_2_alg».proof.Proof.Spec
import proofs.«126355_j90692529422554_2_alg».proof.Proof.LibDotRows
import proofs.«126355_j90692529422554_2_alg».proof.Proof.LibColumns
import Idealize.ShloMosaic.Lib.ValueLayout
import Idealize.ShloMosaic.Lib.Pipeline.Value
import Idealize.ShloMosaic.PureOps.Ideal.Laws

noncomputable section

open scoped BigOperators

namespace Cert.Payloads

open Cert.KernelIdeal Cert.KernelIdeal.Gen Idealize.ShloMosaic Idealize.ShloMosaic.ValueIdx

/-- At the first step the accumulator is set to the zero word, which is `0`. -/
theorem pay1_apply (p : Fin 512) (q : Fin 1024) : k0_pay1 (F := Ideal) (ix2 p q) = 0 := by
  unfold k0_pay1
  rw [shapeCast_self]
  exact Ideal.ofBits_zero_f32

/-- At every step the accumulator gains, at `(p, q)`, the inner product of row `p` of the activation block with row `q` of the
    weight block: the casts to the same shape and the narrowing of the format are identities, and the product's dimension numbers
    contract the last axis of both operands into the zero array. -/
theorem pay2_apply (x : Vec Ideal S512x1024 .f32) (w : Vec Ideal S1024x1024 .bf16) (acc : Vec Ideal S512x1024 .f32)
    (p : Fin 512) (q : Fin 1024) :
    k0_pay2 (F := Ideal) x w acc (ix2 p q) = acc (ix2 p q) + ∑ k : Fin 1024, x (ix2 p k) * w (ix2 q k) := by
  unfold k0_pay2
  simp only [shapeCast_self]
  rw [addf_apply]
  refine congrArg (acc (ix2 p q) + ·) ?_
  exact Cert.Lib.DotRows.matmul_rows_apply (M := 512) (K := 1024) (N := 1024) _ rfl none _ _ p q

/-! ## The normalisation at the last step -/

/-- The lane sum of a `[512, 1024]` array along its second axis, read at row `p`: the sum of that row's 1024 entries
    (the zero accumulator contributes nothing over the extended reals). -/
theorem rowSum_apply (v : FVec Ideal S512x1024 .f32) (hφ : FKind.Formats .f32)
    (hacc : (0x00000000#32 : BitVec 32) = 0x00000000#32) (p : Fin 512) :
    multiReduction (F := Ideal) .add [1] S512 v 0x00000000#32 reduces_S512x1024_S512 hφ hacc (ix1 p)
      = ∑ o : Fin 1024, v (ix2 p o) := by
  refine (Ideal.multiReduction_add_single v 0x00000000#32 reduces_S512x1024_S512 hφ hacc (ix1 p)).trans ?_
  refine Finset.sum_congr rfl fun k _ => ?_
  exact congrArg v (funext fun a => Fin.ext (by match a with | ⟨0, _⟩ => rfl | ⟨1, _⟩ => rfl))

/-- The row before normalisation: accumulated product plus the bias row (broadcast over the rows) plus the residual. -/
def pre (acc : Vec Ideal S512x1024 .f32) (brow : Vec Ideal S1x1024 .f32) (res : Vec Ideal S512x1024 .f32) :
    FVec Ideal S512x1024 .f32 :=
  addf (addf acc (broadcastTo S512x1024 (shapeCast S1x1024 brow shapeCasts_S1x1024_S1x1024) broadcasts_S1x1024_S512x1024))
    (shapeCast S512x1024 res shapeCasts_S512x1024_S512x1024)

/-- Entry `(p, o)` of the row before normalisation. -/
theorem pre_apply (acc : Vec Ideal S512x1024 .f32) (brow : Vec Ideal S1x1024 .f32) (res : Vec Ideal S512x1024 .f32)
    (p : Fin 512) (o : Fin 1024) :
    pre acc brow res (ix2 p o) = (acc (ix2 p o) + brow (ix2 (0 : Fin 1) o)) + res (ix2 p o) := by
  unfold pre
  rw [shapeCast_self, shapeCast_self, addf_apply, addf_apply, broadcastTo_1b_ab_apply]

/-- The column of row means: each row's lane sum, kept as a `[512, 1]` column, divided by the word of 1024. -/
def meanCol (v : FVec Ideal S512x1024 .f32) : FVec Ideal S512x1 .f32 :=
  divf (shapeCast S512x1 (multiReduction (F := Ideal) .add [1] S512 v 0x00000000#32 reduces_S512x1024_S512 (.inl rfl) rfl)
      shapeCasts_S512_S512x1)
    (broadcast S512x1 (Scalar.ofBits (F := Ideal) .f32 0x44800000#32))

/-- Row `p` of the mean column is the specification's mean of row `p`. -/
theorem meanCol_apply (v : FVec Ideal S512x1024 .f32) (p : Fin 512) :
    meanCol v (ix2 p (0 : Fin 1)) = Cert.Spec.mean (fun o => v (ix2 p o)) := by
  unfold meanCol Cert.Spec.mean
  rw [divf_apply, shapeCast_a_a1_apply, rowSum_apply]
  rfl

/-- The centred rows: every entry minus its row's mean (the mean column broadcast over the 1024 columns). -/
def centred (v : FVec Ideal S512x1024 .f32) : FVec Ideal S512x1024 .f32 :=
  subf v (broadcastTo S512x1024 (meanCol v) broadcasts_S512x1_S512x1024)

/-- Entry `(p, o)` of the centred rows. -/
theorem centred_apply (v : FVec Ideal S512x1024 .f32) (p : Fin 512) (o : Fin 1024) :
    centred v (ix2 p o) = v (ix2 p o) - Cert.Spec.mean (fun o' => v (ix2 p o')) := by
  unfold centred
  rw [subf_apply, broadcastTo_a1_ab_apply, meanCol_apply]

/-- The column of reciprocal square roots: the mean column of the squared deviations, plus the small constant, under `rsqrt`. -/
def rstdCol (v : FVec Ideal S512x1024 .f32) : FVec Ideal S512x1 .f32 :=
  rsqrt (addf (meanCol (mulf (centred v) (centred v))) (broadcast S512x1 (Scalar.ofBits (F := Ideal) .f32 0x2B8CBCCC#32)))

/-- Row `p` of that column: the reciprocal square root of the mean squared deviation of row `p` plus the small constant. -/
theorem rstdCol_apply (v : FVec Ideal S512x1024 .f32) (p : Fin 512) :
    rstdCol v (ix2 p (0 : Fin 1))
      = Ideal.rsqrt (Cert.Spec.mean (fun o => (v (ix2 p o) - Cert.Spec.mean (fun o' => v (ix2 p o')))
            * (v (ix2 p o) - Cert.Spec.mean (fun o' => v (ix2 p o')))) + Cert.Spec.eps) := by
  unfold rstdCol
  show Ideal.rsqrt (meanCol (mulf (centred v) (centred v)) (ix2 p (0 : Fin 1)) + Cert.Spec.eps) = _
  rw [meanCol_apply]
  refine congrArg (fun m => Ideal.rsqrt (Cert.Spec.mean m + Cert.Spec.eps)) (funext fun o => ?_)
  rw [mulf_apply, centred_apply]

/-- The stored array is the composition of these pieces: gain row times centred rows times the reciprocal-square-root column, plus
    the shift row. By definitional unfolding. -/
theorem pay3_eq (acc : Vec Ideal S512x1024 .f32) (brow : Vec Ideal S1x1024 .f32) (res : Vec Ideal S512x1024 .f32)
    (grow berow : Vec Ideal S1x1024 .f32) :
    k0_pay3 (F := Ideal) acc brow res grow berow
      = addf (mulf (mulf (broadcastTo S512x1024 (shapeCast S1x1024 grow shapeCasts_S1x1024_S1x1024) broadcasts_S1x1024_S512x1024)
                (centred (pre acc brow res)))
            (broadcastTo S512x1024 (rstdCol (pre acc brow res)) broadcasts_S512x1_S512x1024))
          (broadcastTo S512x1024 (shapeCast S1x1024 berow shapeCasts_S1x1024_S1x1024) broadcasts_S1x1024_S512x1024) := rfl

/-- At the last step the stored entry `(p, q)` is entry `q` of the normalised row `p`: the row is the accumulator's plus the bias
    plus the residual's, the gain and the shift are the two `[1, 1024]` rows. -/
theorem pay3_apply (acc : Vec Ideal S512x1024 .f32) (brow : Vec Ideal S1x1024 .f32) (res : Vec Ideal S512x1024 .f32)
    (grow berow : Vec Ideal S1x1024 .f32) (p : Fin 512) (q : Fin 1024) :
    k0_pay3 (F := Ideal) acc brow res grow berow (ix2 p q)
      = Cert.Spec.lnRow (fun o => (acc (ix2 p o) + brow (ix2 (0 : Fin 1) o)) + res (ix2 p o))
          (fun o => grow (ix2 (0 : Fin 1) o)) (fun o => berow (ix2 (0 : Fin 1) o)) q := by
  rw [pay3_eq, show (fun o => (acc (ix2 p o) + brow (ix2 (0 : Fin 1) o)) + res (ix2 p o)) = fun o => pre acc brow res (ix2 p o)
    from funext fun o => (pre_apply acc brow res p o).symm]
  generalize pre acc brow res = v
  unfold Cert.Spec.lnRow
  rw [addf_apply, mulf_apply, mulf_apply, broadcastTo_1b_ab_apply, broadcastTo_1b_ab_apply, broadcastTo_a1_ab_apply,
    shapeCast_self, shapeCast_self, centred_apply, rstdCol_apply]

end Cert.Payloads

end
-- ==== Proof.LibGridAcc.lean ====
/-
  Two facts about finite sums in an additive commutative monoid (used over the extended reals; nothing here asks the
  summands to be finite).

  A sum over `B · J` consecutive positions is the sum, over the `B` blocks, of each block's `J` entries: position
  `J · j + k` is entry `k` of block `j`. Stated for any `B` and `J`, and once more for 8192 = 8 · 1024 positions over
  `Fin 8192` itself, so that no change of index type is left to the user.

  An accumulator that starts from zero plus the first summand and then adds one summand per step holds, after step
  `n`, the sum of the summands `0, …, n`. Stated for sequences indexed by the natural numbers (with the step law for
  every `j`, or only below a bound), for sequences indexed by `Fin (n + 1)`, and in the variant where every summand
  arrives as zero plus itself.
-/
import Mathlib.Algebra.BigOperators.Fin
import Mathlib.Algebra.BigOperators.Intervals
import Mathlib.Logic.Equiv.Fin.Basic
import Idealize.ShloMosaic.PureOps.Ideal

open scoped BigOperators

namespace Cert.Lib.GridAcc

variable {M : Type*} [AddCommMonoid M]

/-! ## A sum cut into equal blocks -/

/-- Entry `k` of block `j` lies inside the `B · J` positions. -/
theorem blk_lt {B J : ℕ} (j : Fin B) (k : Fin J) : J * j.val + k.val < B * J := by
  have hj := j.isLt
  have hk := k.isLt
  calc J * j.val + k.val < J * j.val + J := by omega
    _ = J * (j.val + 1) := by ring
    _ ≤ J * B := Nat.mul_le_mul_left _ hj
    _ = B * J := Nat.mul_comm _ _

/-- The same position written block index first. -/
theorem blk_lt' {B J : ℕ} (j : Fin B) (k : Fin J) : j.val * J + k.val < B * J := by
  rw [Nat.mul_comm j.val J]; exact blk_lt j k

/-- A sum over `B · J` positions is the sum over the blocks of each block's entries. -/
theorem sum_blocks {B J : ℕ} (g : Fin (B * J) → M) :
    ∑ x : Fin (B * J), g x = ∑ j : Fin B, ∑ k : Fin J, g ⟨J * j.val + k.val, blk_lt j k⟩ := by
  rw [← (finProdFinEquiv (m := B) (n := J)).sum_comp g, Fintype.sum_prod_type]
  refine Finset.sum_congr rfl fun j _ => Finset.sum_congr rfl fun k _ => congrArg g (Fin.ext ?_)
  show k.val + J * j.val = J * j.val + k.val
  exact Nat.add_comm _ _

/-- The same with the position written block index first. -/
theorem sum_blocks' {B J : ℕ} (g : Fin (B * J) → M) :
    ∑ x : Fin (B * J), g x = ∑ j : Fin B, ∑ k : Fin J, g ⟨j.val * J + k.val, blk_lt' j k⟩ := by
  rw [sum_blocks]
  exact Finset.sum_congr rfl fun j _ => Finset.sum_congr rfl fun k _ => congrArg g (Fin.ext (by
    show J * j.val + k.val = j.val * J + k.val
    rw [Nat.mul_comm]))

/-- 8192 positions as 8 blocks of 1024. -/
theorem sum_8192 (g : Fin 8192 → M) :
    ∑ n : Fin 8192, g n = ∑ j : Fin 8, ∑ k : Fin 1024, g ⟨1024 * j.val + k.val, by omega⟩ :=
  sum_blocks (B := 8) (J := 1024) g

/-- The same with the position written block index first. -/
theorem sum_8192' (g : Fin 8192 → M) :
    ∑ n : Fin 8192, g n = ∑ j : Fin 8, ∑ k : Fin 1024, g ⟨j.val * 1024 + k.val, by omega⟩ :=
  sum_blocks' (B := 8) (J := 1024) g

/-! ## An accumulator run step by step -/

/-- With the step law below a bound `N`: after step `n ≤ N` the accumulator holds the sum of the summands `0, …, n`. -/
theorem acc_eq_sum_of_lt (a b : ℕ → M) (N : ℕ) (h0 : a 0 = 0 + b 0) (hs : ∀ j, j < N → a (j + 1) = a j + b (j + 1)) :
    ∀ n, n ≤ N → a n = ∑ j ∈ Finset.range (n + 1), b j := by
  intro n
  induction n with
  | zero => intro _; rw [h0, zero_add, Finset.sum_range_one]
  | succ n ih =>
    intro hn
    rw [hs n (by omega), ih (by omega), Finset.sum_range_succ _ (n + 1)]

/-- With the step law at every `j`: after step `n` the accumulator holds the sum of the summands `0, …, n`. -/
theorem acc_eq_sum (a b : ℕ → M) (h0 : a 0 = 0 + b 0) (hs : ∀ j, a (j + 1) = a j + b (j + 1)) (n : ℕ) :
    a n = ∑ j ∈ Finset.range (n + 1), b j :=
  acc_eq_sum_of_lt a b n h0 (fun j _ => hs j) n (le_refl n)

/-- After the eighth step (step 7), as a sum over `Fin 8`; the step law is needed only below 7. -/
theorem acc7_eq_sum (a b : ℕ → M) (h0 : a 0 = 0 + b 0) (hs : ∀ j, j < 7 → a (j + 1) = a j + b (j + 1)) :
    a 7 = ∑ j : Fin 8, b j.val := by
  rw [acc_eq_sum_of_lt a b 7 h0 hs 7 (le_refl 7), Finset.sum_range]

/-- The variant where every summand arrives as zero plus itself (a product added into a zero accumulator before it is
    added to the running one). -/
theorem acc_eq_sum_zero_add_of_lt (a b : ℕ → M) (N : ℕ) (h0 : a 0 = 0 + (0 + b 0))
    (hs : ∀ j, j < N → a (j + 1) = a j + (0 + b (j + 1))) : ∀ n, n ≤ N → a n = ∑ j ∈ Finset.range (n + 1), b j :=
  acc_eq_sum_of_lt a b N (by rw [h0, zero_add]) (fun j hj => by rw [hs j hj, zero_add])

theorem acc_eq_sum_zero_add (a b : ℕ → M) (h0 : a 0 = 0 + (0 + b 0)) (hs : ∀ j, a (j + 1) = a j + (0 + b (j + 1))) (n : ℕ) :
    a n = ∑ j ∈ Finset.range (n + 1), b j :=
  acc_eq_sum_zero_add_of_lt a b n h0 (fun j _ => hs j) n (le_refl n)

theorem acc7_eq_sum_zero_add (a b : ℕ → M) (h0 : a 0 = 0 + (0 + b 0))
    (hs : ∀ j, j < 7 → a (j + 1) = a j + (0 + b (j + 1))) : a 7 = ∑ j : Fin 8, b j.val := by
  rw [acc_eq_sum_zero_add_of_lt a b 7 h0 hs 7 (le_refl 7), Finset.sum_range]

/-- The accumulator and the summands indexed by `Fin (n + 1)`: the last value is the sum of all the summands. -/
theorem acc_fin_eq_sum {n : ℕ} (a b : Fin (n + 1) → M) (h0 : a 0 = 0 + b 0)
    (hs : ∀ j : Fin n, a j.succ = a j.castSucc + b j.succ) : a (Fin.last n) = ∑ j, b j := by
  have key : ∀ (k : ℕ) (hk : k < n + 1),
      a ⟨k, hk⟩ = ∑ j ∈ Finset.range (k + 1), (if h : j < n + 1 then b ⟨j, h⟩ else 0) := by
    intro k
    induction k with
    | zero =>
      intro hk
      rw [Finset.sum_range_one, dif_pos hk]
      exact h0.trans (zero_add _)
    | succ k ih =>
      intro hk
      have hk' : k < n := by omega
      rw [Finset.sum_range_succ, ← ih (by omega), dif_pos hk]
      exact hs ⟨k, hk'⟩
  rw [show Fin.last n = ⟨n, Nat.lt_succ_self n⟩ from rfl, key n _, Finset.sum_range]
  exact Finset.sum_congr rfl fun j _ => by rw [dif_pos j.isLt]

/-- The same in the variant where every summand arrives as zero plus itself. -/
theorem acc_fin_eq_sum_zero_add {n : ℕ} (a b : Fin (n + 1) → M) (h0 : a 0 = 0 + (0 + b 0))
    (hs : ∀ j : Fin n, a j.succ = a j.castSucc + (0 + b j.succ)) : a (Fin.last n) = ∑ j, b j :=
  acc_fin_eq_sum a b (by rw [h0, zero_add]) (fun j => by rw [hs j, zero_add])

/-- Eight steps over blocks of 1024: an accumulator that adds, at step `j`, the sum of block `j` of a family over
    8192 positions ends at the sum over all 8192 positions. -/
theorem acc8_blocks_eq_sum_8192 (a : Fin 8 → M) (g : Fin 8192 → M)
    (h0 : a 0 = 0 + ∑ k : Fin 1024, g ⟨1024 * (0 : Fin 8).val + k.val, by omega⟩)
    (hs : ∀ j : Fin 7, a j.succ = a j.castSucc + ∑ k : Fin 1024, g ⟨1024 * j.succ.val + k.val, by omega⟩) :
    a 7 = ∑ n : Fin 8192, g n := by
  rw [sum_8192 g]
  exact acc_fin_eq_sum (n := 7) a (fun j => ∑ k : Fin 1024, g ⟨1024 * j.val + k.val, by omega⟩) h0 hs

end Cert.Lib.GridAcc
-- ==== Proof.Accum.lean ====
/-
  The accumulator across the grid, and the output block.

  Row `r` of the activations against row `q` of the weights is a 4096-term inner product; cut its terms into four
  consecutive blocks of 1024 (`blockSum … j`, zero for `j ≥ 4`). After grid point `n` (row block `n / 4`, K-step `n % 4`) the
  scratch accumulator holds, at `(p, q)`, the sum of the blocks `0 … n % 4` of row `512·(n/4) + p` against row `q`: at K-step 0
  the zero block plus block 0, afterwards what the point before left plus the point's own block — by induction on the
  point. After a last K-step that is the whole inner product (a sum over 4 · 1024 positions is the sum of its four blocks:
  associativity and commutativity only, so nothing is asked of the entries), and the output block written there is the
  normalised row of inner product + bias + residual: the specification's `out2` at that row.
-/
import proofs.«126355_j90692529422554_2_alg».proof.Proof.Blocks
import proofs.«126355_j90692529422554_2_alg».proof.Proof.Payloads
import proofs.«126355_j90692529422554_2_alg».proof.Proof.LibGridAcc

set_option maxRecDepth 16384

noncomputable section

open scoped BigOperators
open Idealize.ShloMosaic Idealize.ShloMosaic.TcCoe Idealize.SL.Sem Idealize.ShloMosaic.ValueIdx

namespace Cert.Accum

open Cert.KernelIdeal Cert.KernelIdeal.Gen Cert.Pieces Cert.Blocks Cert.Payloads

variable (m : (ℓ : Loc nD τ sig) → Buf (Elt Ideal) ℓ)

/-- The activations as the region finds them, `[8192, 4096]`. -/
abbrev Hm (c : Dev nD) : Vec Ideal S8192x4096 .f32 := V m c main_v9
/-- The weight matrix as the region finds it, `[1024, 4096]`. -/
abbrev Wm (c : Dev nD) : Vec Ideal S1024x4096 .bf16 := V m c main_v8
/-- The residual, `[8192, 1024]`, and the bias, gain and shift rows, `[1, 1024]`. -/
abbrev Rm (c : Dev nD) : Vec Ideal S8192x1024 .f32 := V m c main_v10
abbrev Bm (c : Dev nD) : Vec Ideal S1x1024 .f32 := V m c main_v11
abbrev Gm (c : Dev nD) : Vec Ideal S1x1024 .f32 := V m c main_v12
abbrev Em (c : Dev nD) : Vec Ideal S1x1024 .f32 := V m c main_v13

/-- Block `j` of the inner product of row `r` of the activations with row `q` of the weights: the 1024 terms at columns
    `1024·j … 1024·j + 1023`; zero past the fourth block. -/
def blockSum (c : Dev nD) (r : Fin 8192) (q : Fin 1024) (j : ℕ) : EReal :=
  if h : j < 4 then
    ∑ k : Fin 1024, Hm m c (ix2 r ⟨1024 * j + k.val, by have := k.isLt; omega⟩) * Wm m c (ix2 q ⟨1024 * j + k.val, by have := k.isLt; omega⟩)
  else 0

/-- One accumulation step at point `t`, entry by entry: the accumulator's entry plus the point's block of the inner product. -/
theorem step_apply (c : Dev nD) (t : Fin cfg0.N) (acc : Vec Ideal S512x1024 .f32) (p : Fin 512) (q : Fin 1024) :
    step (grid0.coords t) (iblk m c 0 t) (iblk m c 1 t) acc (ix2 p q)
      = acc (ix2 p q) + blockSum m c (grow t p) q (t.val % 4) := by
  refine (pay2_apply (iblk m c 0 t) (wchunk (grid0.coords t) (iblk m c 1 t)) acc p q).trans ?_
  refine congrArg (acc (ix2 p q) + ·) ?_
  unfold blockSum
  rw [dif_pos (Nat.mod_lt _ (by decide))]
  refine Finset.sum_congr rfl fun k _ => ?_
  rw [iblk0_apply m c t p k, wchunk_apply m c t q k]
  rfl

/-! ## What each kind of point leaves, in terms of `step` -/

/-- At a first K-step the accumulator is the zero block stepped once. -/
theorem scratch_A (c : Dev nD) (t : Fin cfg0.N) (h0 : t.val % 4 = 0) (h1 : ¬t.val % 4 = 3) :
    (outsAt0 m c t.val t.isLt).2 = step (grid0.coords t) (iblk m c 0 t) (iblk m c 1 t) (k0_pay1 (F := Ideal)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At a middle K-step it is what the point before left, stepped once. -/
theorem scratch_B (c : Dev nD) (t : Fin cfg0.N) (h0 : ¬t.val % 4 = 0) (h1 : ¬t.val % 4 = 3) :
    (outsAt0 m c t.val t.isLt).2 = step (grid0.coords t) (iblk m c 0 t) (iblk m c 1 t) (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- The same at a last K-step, -/
theorem scratch_C (c : Dev nD) (t : Fin cfg0.N) (h0 : ¬t.val % 4 = 0) (h1 : t.val % 4 = 3) :
    (outsAt0 m c t.val t.isLt).2 = step (grid0.coords t) (iblk m c 0 t) (iblk m c 1 t) (outsAt0 m c (t.val - 1) (Nat.lt_of_le_of_lt (Nat.sub_le _ _) t.isLt)).2 := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- where the output block is the normalisation payload of that accumulator and the point's other four blocks. -/
theorem output_C (c : Dev nD) (t : Fin cfg0.N) (h0 : ¬t.val % 4 = 0) (h1 : t.val % 4 = 3) :
    (outsAt0 m c t.val t.isLt).1
      = k0_pay3 (F := Ideal) (outsAt0 m c t.val t.isLt).2 (iblk m c 2 t) (iblk m c 3 t) (iblk m c 4 t) (iblk m c 5 t) := by
  rw [scratch_C m c t h0 h1, outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-! ## The accumulator after every point -/

/-- After point `n` the accumulator's entry `(p, q)` is the sum of the blocks `0 … n % 4` of the inner product of the
    point's row `p` with weight row `q`. -/
theorem acc_eq (c : Dev nD) : ∀ (n : ℕ) (hn : n < cfg0.N) (p : Fin 512) (q : Fin 1024),
    (outsAt0 m c n hn).2 (ix2 p q) = ∑ j ∈ Finset.range (n % 4 + 1), blockSum m c (grow ⟨n, hn⟩ p) q j := by
  intro n
  induction n with
  | zero =>
    intro hn p q
    rw [show (outsAt0 m c 0 hn).2 = _ from scratch_A m c ⟨0, hn⟩ rfl (show ¬(0 : ℕ) % 4 = 3 by decide), step_apply, pay1_apply, zero_add]
    show blockSum m c _ q (0 % 4) = _
    rw [Nat.zero_mod, Finset.sum_range_one]
  | succ n ih =>
    intro hn p q
    by_cases h0 : (n + 1) % 4 = 0
    · have h1 : ¬(n + 1) % 4 = 3 := by omega
      rw [show (outsAt0 m c (n + 1) hn).2 = _ from scratch_A m c ⟨n + 1, hn⟩ h0 h1, step_apply, pay1_apply, zero_add]
      show blockSum m c _ q ((n + 1) % 4) = _
      rw [h0, Finset.sum_range_one]
    · have hstep : (outsAt0 m c (n + 1) hn).2
          = step (grid0.coords ⟨n + 1, hn⟩) (iblk m c 0 ⟨n + 1, hn⟩) (iblk m c 1 ⟨n + 1, hn⟩)
              (outsAt0 m c n (Nat.lt_of_succ_lt hn)).2 := by
        by_cases h1 : (n + 1) % 4 = 3
        · exact scratch_C m c ⟨n + 1, hn⟩ h0 h1
        · exact scratch_B m c ⟨n + 1, hn⟩ h0 h1
      rw [hstep, step_apply, ih (Nat.lt_of_succ_lt hn) p q]
      show _ + blockSum m c _ q ((n + 1) % 4) = _
      have hrow : grow ⟨n, Nat.lt_of_succ_lt hn⟩ p = grow ⟨n + 1, hn⟩ p :=
        Fin.ext (by show 512 * (n / 4) + p.val = 512 * ((n + 1) / 4) + p.val; omega)
      have hk : n % 4 + 1 = (n + 1) % 4 := by omega
      rw [hrow, hk, Finset.sum_range_succ]

/-- The four blocks together are the whole inner product: a sum over `4 · 1024` positions cut into its blocks. -/
theorem blocks_total (c : Dev nD) (r : Fin 8192) (q : Fin 1024) :
    ∑ j ∈ Finset.range 4, blockSum m c r q j = ∑ i : Fin 4096, Hm m c (ix2 r i) * Wm m c (ix2 q i) := by
  have e := Cert.Lib.GridAcc.sum_blocks (M := EReal) (B := 4) (J := 1024)
    (fun i : Fin 4096 => Hm m c (ix2 r i) * Wm m c (ix2 q i))
  rw [Finset.sum_range]
  refine Eq.trans ?_ e.symm
  refine Finset.sum_congr rfl fun j _ => ?_
  unfold blockSum
  rw [dif_pos j.isLt]

/-! ## The output block -/

/-- At a last K-step the output block's entry `(p, q)` is the specification at row `512·(t/4) + p`, column `q`. -/
theorem out_block (c : Dev nD) (t : Fin cfg0.N) (h3 : t.val % 4 = 3) (p : Fin 512) (q : Fin 1024) :
    (outsAt0 m c t.val t.isLt).1 (ix2 p q)
      = Cert.Spec.out2 (Hm m c) (Rm m c) (Wm m c) (Bm m c) (Gm m c) (Em m c) (grow t p) q := by
  have h0 : ¬t.val % 4 = 0 := by omega
  rw [output_C m c t h0 h3]
  refine (pay3_apply (outsAt0 m c t.val t.isLt).2 (iblk m c 2 t) (iblk m c 3 t) (iblk m c 4 t) (iblk m c 5 t) p q).trans ?_
  unfold Cert.Spec.out2
  have hx : (fun o : Fin 1024 => ((outsAt0 m c t.val t.isLt).2 (ix2 p o) + (iblk m c 2 t : Vec Ideal S1x1024 .f32) (ix2 (0 : Fin 1) o))
        + (iblk m c 3 t : Vec Ideal S512x1024 .f32) (ix2 p o))
      = Cert.Spec.pre2 (Hm m c) (Rm m c) (Wm m c) (Bm m c) (grow t p) := by
    funext o
    rw [acc_eq m c t.val t.isLt p o, h3, blocks_total, iblk2_apply m c t 0 o, iblk3_apply m c t p o]
    rfl
  have hg : (fun o : Fin 1024 => (iblk m c 4 t : Vec Ideal S1x1024 .f32) (ix2 (0 : Fin 1) o)) = fun o' => Gm m c (ix2 (0 : Fin 1) o') :=
    funext fun o => iblk4_apply m c t 0 o
  have he : (fun o : Fin 1024 => (iblk m c 5 t : Vec Ideal S1x1024 .f32) (ix2 (0 : Fin 1) o)) = fun o' => Em m c (ix2 (0 : Fin 1) o') :=
    funext fun o => iblk5_apply m c t 0 o
  rw [hx, hg, he]

end Cert.Accum

end
-- ==== Proof.Final.lean ====
/-
  From blocks to the array, and through the program's last line.

  Only the last K-step of each row block writes its output block back, and block `t / 4` of the `[8192, 1024]` result array
  is rows `512·(t/4) … +511`: the sixteen written blocks tile the array, and each is the specification's `out2` at its
  rows (the accumulation module). So after the region the array is `out2` everywhere. The program then re-lays it as
  `[16, 512, 1024]` (row `512·p + s` becomes `(p, s)`); before the region it had re-laid the activations and the
  residual the other way and the three per-column vectors as `[1, 1024]` rows. Read through these re-layouts, `out2`
  at row `512·p + s` is `out3` at `(p, s)`.
-/
import proofs.«126355_j90692529422554_2_alg».proof.Proof.Accum
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Final

open Cert.KernelIdeal Cert.KernelIdeal.Gen Cert.Blocks Cert.Accum

variable (m : (ℓ : Loc nD τ sig) → Buf (Elt Ideal) ℓ) (ρ : Dev nD → PrngReg)

/-- The `[8192, 1024]` array the region leaves: the specification, row by row. -/
abbrev G2 (c : Dev nD) : Buf (Elt Ideal) ((c : Thread nD τ).loc main_v14) :=
  fun j => Cert.Spec.out2 (Hm m c) (Rm m c) (Wm m c) (Bm m c) (Gm m c) (Em m c) ⟨(j 0).val, idx2_lt0 j⟩ ⟨(j 1).val, idx2_lt1 j⟩

/-- Two `[512, 1024]` blocks that agree at every `(p, q)` are equal. -/
theorem block_ext {α : Type} (f g : S512x1024.Idx → α) (h : ∀ (p : Fin 512) (q : Fin 1024), f (ix2 p q) = g (ix2 p q)) : f = g :=
  funext fun y => by rw [eq_ix2 y]; exact h _ _

/-- WHAT A WRITING POINT WRITES BACK is its block of `G2`. -/
theorem flushed_eq (c : Dev nD) (t : Fin cfg0.N) (hf : (cfg0.win 6).flush t = true) :
    (dats m 0 c).flushed 6 t = ((cfg0.win 6).blk t).view.read (Elt Ideal) (G2 m c) := by
  have h3 : t.val % 4 = 3 := (flush0_6 t).mp hf
  have hi := (idx_facts t).2.2.2.2.2.2.1
  show (cfg0.win 6).cut (grid0.coords t) ((dats m 0 c).after 6 t) = _
  rw [after0_6]
  refine block_ext _ _ fun p q => ?_
  rw [View.read_apply]
  show (outsAt0 m c t.val t.isLt).1 (ix2 p q) = G2 m c (((cfg0.win 6).blk t).view.emb (ix2 p q))
  rw [out_block m c t h3 p q]
  have e0 : grow t p = ⟨((((cfg0.win 6).blk t).view.emb (ix2 p q)) 0).val, idx2_lt0 _⟩ := Fin.ext (by
    show 512 * (t.val / 4) + p.val = win0_6.index t 0 * 512 + 1 * p.val
    rw [hi.1]; omega)
  have e1 : q = ⟨((((cfg0.win 6).blk t).view.emb (ix2 p q)) 1).val, idx2_lt1 _⟩ := Fin.ext (by
    show q.val = win0_6.index t 1 * 1024 + 1 * q.val
    rw [hi.2]; omega)
  show Cert.Spec.out2 _ _ _ _ _ _ (grow t p) q = Cert.Spec.out2 _ _ _ _ _ _ _ _
  rw [← e0, ← e1]

/-- An index of the array lies in point `t`'s block iff each coordinate lies in the block's range on its axis. -/
theorem mem_blk (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v14).slice (win0_6.rect t)).set ↔ _
  rw [View.set_slice_whole, Rect.mem_set_unit]
  exact Iff.rfl

/-- Every row of the array lies in the block its row block's last K-step writes back. -/
theorem cover (i : S8192x1024.Idx) : ∃ t : Fin cfg0.N, (cfg0.win 6).flush t = true ∧ i ∈ ((cfg0.win 6).blk t).view.set := by
  have hi0 : (i 0).val < 8192 := idx2_lt0 i
  have hi1 : (i 1).val < 1024 := idx2_lt1 i
  let t : Fin cfg0.N := ⟨4 * ((i 0).val / 512) + 3, lt_of_lt_of_eq (by omega : 4 * ((i 0).val / 512) + 3 < 64) N_0.symm⟩
  have ht : t.val = 4 * ((i 0).val / 512) + 3 := rfl
  have hw := (idx_facts t).2.2.2.2.2.2.1
  refine ⟨t, (flush0_6 t).mpr (by rw [ht]; omega), ?_⟩
  rw [mem_blk]
  intro a
  match a with
  | ⟨0, _⟩ =>
    show win0_6.index t 0 * 512 ≤ (i 0).val ∧ (i 0).val < win0_6.index t 0 * 512 + 512
    rw [hw.1, ht]; omega
  | ⟨1, _⟩ =>
    show win0_6.index t 1 * 1024 ≤ (i 1).val ∧ (i 1).val < win0_6.index t 1 * 1024 + 1024
    rw [hw.2]; omega

/-- THE ARRAY after the region is the specification, row by row. -/
theorem final (c : Dev nD) : (dats m 0 c).arrAt 6 cfg0.N = G2 m c :=
  (dats m 0 c).arrAt_eq_of_cover 6 (G2 m c) (flushed_eq m c) cover

/-! ## The program's lines before the region -/

/-- The activations the region finds are the `[16, 512, 4096]` argument re-laid as `[8192, 4096]`. -/
theorem Hm_eq (c : Dev nD) :
    Hm m c = shapeCast S8192x4096 (m ((c : Thread nD τ).loc main_arg0)) shapeCasts_S16x512x4096_S8192x4096 := by
  show StableHlo.after hostOps0 (fun b => m (c, b)) (Proc.devRef .tc main_v9) = _
  after_results
  rfl

/-- The residual likewise. -/
theorem Rm_eq (c : Dev nD) :
    Rm m c = shapeCast S8192x1024 (m ((c : Thread nD τ).loc main_arg1)) shapeCasts_S16x512x1024_S8192x1024 := by
  show StableHlo.after hostOps0 (fun b => m (c, b)) (Proc.devRef .tc main_v10) = _
  after_results
  rfl

/-- The bias, gain and shift vectors become `[1, 1024]` rows. -/
theorem Bm_eq (c : Dev nD) : Bm m c = shapeCast S1x1024 (m ((c : Thread nD τ).loc main_arg3)) shapeCasts_S1024_S1x1024 := by
  show StableHlo.after hostOps0 (fun b => m (c, b)) (Proc.devRef .tc main_v11) = _
  after_results
  rfl
theorem Gm_eq (c : Dev nD) : Gm m c = shapeCast S1x1024 (m ((c : Thread nD τ).loc main_arg4)) shapeCasts_S1024_S1x1024 := by
  show StableHlo.after hostOps0 (fun b => m (c, b)) (Proc.devRef .tc main_v12) = _
  after_results
  rfl
theorem Em_eq (c : Dev nD) : Em m c = shapeCast S1x1024 (m ((c : Thread nD τ).loc main_arg5)) shapeCasts_S1024_S1x1024 := by
  show StableHlo.after hostOps0 (fun b => m (c, b)) (Proc.devRef .tc main_v13) = _
  after_results
  rfl

/-- The weight matrix the region finds, as the lines before it compute it from the `[1024, 4096]` argument: the sign of each
    weight times its row's mean absolute value (a sum from zero divided by 4096), then a change of float format. -/
def wq (W : Vec Ideal S1024x4096 .f32) : Vec Ideal S1024x4096 .bf16 :=
  truncf (F := Ideal) .bf16 (mulf (Host.sign (F := Ideal) W) (broadcastInDim S1024x4096 ![0, 1] bcast_S1024x1_S1024x4096_0_1
    (Host.divf (F := Ideal) (broadcastInDim S1024x1 ![0] bcast_S1024_S1024x1_0
        (Host.reduceAdd (F := Ideal) (Host.absf (F := Ideal) W) (constant (F := Ideal) S_ .f32 0x00000000#32) reducesTo_S1024x4096_S1024_d1 h_S_))
      (broadcastInDim S1024x1 ![] bcast_S_S1024x1 (constant (F := Ideal) S_ .f32 0x45800000#32))))) bitsLt_bf16_f32

theorem Wm_eq (c : Dev nD) : Wm m c = wq (m ((c : Thread nD τ).loc main_arg2)) := by
  show StableHlo.after hostOps0 (fun b => m (c, b)) (Proc.devRef .tc main_v8) = _
  after_results
  rfl

/-! ## The program's last line -/

/-- The result: the region's array re-laid as `[16, 512, 1024]`. -/
theorem result_eq (c : Dev nD) :
    Pipeline.afterTail₀ cfgs (dats m) 0 (V0 m) [hostOps1] c main_v15
      = shapeCast S16x512x1024 (G2 m c) shapeCasts_S8192x1024_S16x512x1024 := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.tc.devRef main_v14)
      = G2 m c :=
    (Pipeline.withArrays_arr spec0 launch0.win.arr_inj c _ _ 6).trans (final m c)
  exact congrArg (fun X => shapeCast S16x512x1024 X shapeCasts_S8192x1024_S16x512x1024) e

/-! ## Reading through the re-layouts -/

/-- Row `512·p + s` of the re-laid activations is the argument's row `(p, s)`. -/
theorem Hm_apply (c : Dev nD) (p : Fin 16) (s : Fin 512) (i : Fin 4096) (r : Fin 8192) (hr : r.val = 512 * p.val + s.val) :
    Hm m c (ix2 r i) = (m ((c : Thread nD τ).loc main_arg0)) (ix3 p s i) := by
  rw [Hm_eq]
  exact shapeCast_apply _ _ _ _ (by
    show ((⟨3, ![16, 512, 4096]⟩ : Shape).rowMajor (ix3 p s i)).val = ((⟨2, ![8192, 4096]⟩ : Shape).rowMajor (ix2 r i)).val
    rw [Shape.rowMajor_val_three, Shape.rowMajor_val_two]
    show (p.val * 512 + s.val) * 4096 + i.val = r.val * 4096 + i.val
    rw [hr]; omega)

/-- The same for the residual. -/
theorem Rm_apply (c : Dev nD) (p : Fin 16) (s : Fin 512) (o : Fin 1024) (r : Fin 8192) (hr : r.val = 512 * p.val + s.val) :
    Rm m c (ix2 r o) = (m ((c : Thread nD τ).loc main_arg1)) (ix3 p s o) := by
  rw [Rm_eq]
  exact shapeCast_apply _ _ _ _ (by
    show ((⟨3, ![16, 512, 1024]⟩ : Shape).rowMajor (ix3 p s o)).val = ((⟨2, ![8192, 1024]⟩ : Shape).rowMajor (ix2 r o)).val
    rw [Shape.rowMajor_val_three, Shape.rowMajor_val_two]
    show (p.val * 512 + s.val) * 1024 + o.val = r.val * 1024 + o.val
    rw [hr]; omega)

/-- A `[1024]` vector laid as a `[1, 1024]` row reads, at `(0, o)`, the vector at `o`. -/
theorem row_apply (x : Vec Ideal S1024 .f32) (o : Fin 1024) :
    shapeCast S1x1024 x shapeCasts_S1024_S1x1024 (ix2 (0 : Fin 1) o) = x (ix1 o) :=
  shapeCast_apply _ _ _ _ (by
    show ((⟨1, ![1024]⟩ : Shape).rowMajor (ix1 o)).val = ((⟨2, ![1, 1024]⟩ : Shape).rowMajor (ix2 (0 : Fin 1) o)).val
    rw [Shape.rowMajor_val_one, Shape.rowMajor_val_two]
    show o.val = (0 : Fin 1).val * 1024 + o.val
    show o.val = 0 * 1024 + o.val
    omega)

/-- THE RESULT, entry by entry: the specification `out3` of the argument arrays, the weight matrix as the lines before the
    region compute it. -/
def res (c : Dev nD) : Buf (Elt Ideal) ((c : Thread nD τ).loc main_v15) := fun j =>
  Cert.Spec.out3 (m ((c : Thread nD τ).loc main_arg0)) (m ((c : Thread nD τ).loc main_arg1)) (wq (m ((c : Thread nD τ).loc main_arg2))) (m ((c : Thread nD τ).loc main_arg3)) (m ((c : Thread nD τ).loc main_arg4)) (m ((c : Thread nD τ).loc main_arg5)) (j 0) (j 1) (j 2)

/-- The region's array re-laid as `[16, 512, 1024]` is `res`. -/
theorem relaid_eq (c : Dev nD) : shapeCast S16x512x1024 (G2 m c) shapeCasts_S8192x1024_S16x512x1024 = res m c := by
  funext j
  obtain ⟨p, s, o, rfl⟩ : ∃ (p : Fin 16) (s : Fin 512) (o : Fin 1024), j = ix3 p s o := ⟨j 0, j 1, j 2, eq_ix3 j⟩
  have hp := p.isLt
  have hs := s.isLt
  have hr : 512 * p.val + s.val < 8192 := by omega
  refine (shapeCast_apply (G2 m c) _ (ix3 p s o) (ix2 ⟨512 * p.val + s.val, hr⟩ o) (by
    show ((⟨2, ![8192, 1024]⟩ : Shape).rowMajor (ix2 ⟨512 * p.val + s.val, hr⟩ o)).val
      = ((⟨3, ![16, 512, 1024]⟩ : Shape).rowMajor (ix3 p s o)).val
    rw [Shape.rowMajor_val_two, Shape.rowMajor_val_three]
    show (512 * p.val + s.val) * 1024 + o.val = (p.val * 512 + s.val) * 1024 + o.val
    omega)).trans ?_
  show Cert.Spec.out2 (Hm m c) (Rm m c) (Wm m c) (Bm m c) (Gm m c) (Em m c) ⟨512 * p.val + s.val, hr⟩ o
    = Cert.Spec.out3 (m ((c : Thread nD τ).loc main_arg0)) (m ((c : Thread nD τ).loc main_arg1)) (wq (m ((c : Thread nD τ).loc main_arg2))) (m ((c : Thread nD τ).loc main_arg3)) (m ((c : Thread nD τ).loc main_arg4)) (m ((c : Thread nD τ).loc main_arg5)) p s o
  unfold Cert.Spec.out2 Cert.Spec.out3
  have hpre : Cert.Spec.pre2 (Hm m c) (Rm m c) (Wm m c) (Bm m c) ⟨512 * p.val + s.val, hr⟩
      = Cert.Spec.pre3 (m ((c : Thread nD τ).loc main_arg0)) (m ((c : Thread nD τ).loc main_arg1)) (wq (m ((c : Thread nD τ).loc main_arg2))) (m ((c : Thread nD τ).loc main_arg3)) p s := by
    funext o'
    unfold Cert.Spec.pre2 Cert.Spec.pre3
    rw [Rm_apply m c p s o' ⟨512 * p.val + s.val, hr⟩ rfl, Bm_eq, row_apply, Wm_eq]
    refine congrArg (fun z => z + _ + _) (Finset.sum_congr rfl fun i _ => ?_)
    rw [Hm_apply m c p s i ⟨512 * p.val + s.val, hr⟩ rfl]
  have hg : (fun o' : Fin 1024 => Gm m c (ix2 (0 : Fin 1) o')) = fun o' => (m ((c : Thread nD τ).loc main_arg4)) (ix1 o') :=
    funext fun o' => by rw [Gm_eq, row_apply]
  have he : (fun o' : Fin 1024 => Em m c (ix2 (0 : Fin 1) o')) = fun o' => (m ((c : Thread nD τ).loc main_arg5)) (ix1 o') :=
    funext fun o' => by rw [Em_eq, row_apply]
  rw [hpre, hg, he]

/-! ## The run, read -/

/-- Every weakly fair execution of the program terminates with its result at `res` and its six arguments unchanged. -/
theorem run : θ_run defs (onTc (τ := τ) (main (F := Ideal))) ⟨m, fun _ => 0, ρ⟩ fun r => ∀ c : Dev nD,
      r.2.mem ((c : Thread nD τ).loc main_v15) = res m c
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5)) :=
  (θ_run defs _ _).mono (fun _ h c =>
    ⟨((h c).2 main_v15 (Pipeline.mem_restRefs_of main_v15 (by decide) (by decide))).trans ((result_eq m c).trans (relaid_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Final

end
-- ==== Proof.RefSide.lean ====
/-
  The reference program's result, entry by entry, is the specification.

  The reference computes, for each row `(p, s)`, the 4096-term inner products with the rows of the weight matrix, adds
  the bias and the residual, and normalises the resulting row of 1024 entries: the mean (a sum divided by 1024) is
  subtracted, the centred entries are squared and averaged, the small constant is added, the reciprocal square root is
  taken, and the centred entry is scaled by the gain and by that factor before the shift is added. Each stage is read at
  an index from its operands; the broadcasts only re-index, so the only facts used are: which index each re-indexing
  produces at `(p, s, o)`, that a sum started from the zero word is the bare sum (`0 + x = x`), and that the exact
  instance's operations are the extended reals' `+`, `-`, `*`, `Ideal.div` and `Ideal.rsqrt`.

  The weight matrix stays an opaque array throughout: only its entries at `(o, k)` occur.
-/
import proofs.«126355_j90692529422554_2_alg».proof.Proof.Gen.ReferenceIdeal.Read
import proofs.«126355_j90692529422554_2_alg».proof.Proof.Spec

noncomputable section

open scoped BigOperators

namespace Cert.RefSide

open Cert.ReferenceIdeal Cert.ReferenceIdeal.Read Idealize.ShloMosaic Idealize.ShloMosaic.ValueIdx

/-- The row before normalisation: the inner product of the activations at `(p, s)` with row `o` of the weights, plus the
    bias at `o`, plus the residual at `(p, s, o)`. The bias reaches `(p, s, o)` through two broadcasts that keep the last
    coordinate. -/
theorem ref_pre (x0 : (⟨S16x512x4096, .f32⟩ : BufTy).Contents (Elt Ideal)) (x1 : (⟨S16x512x1024, .f32⟩ : BufTy).Contents (Elt Ideal))
    (x2 : (⟨S1024x4096, .f32⟩ : BufTy).Contents (Elt Ideal)) (x3 : (⟨S1024, .f32⟩ : BufTy).Contents (Elt Ideal))
    (p : Fin 16) (s : Fin 512) (o : Fin 1024) :
    val_main_v12 (F := Ideal) x0 x1 x2 x3 (ix3 p s o)
      = Cert.Spec.pre3 x0 x1 (val_main_v7 (F := Ideal) x2) x3 p s o := by
  have el : ∀ k : Fin 4096, lidx_main_v8 (ix3 p s o) k = ix3 p s k := fun k =>
    funext fun a => Fin.ext (by match a with | ⟨0, _⟩ => rfl | ⟨1, _⟩ => rfl | ⟨2, _⟩ => rfl)
  have er : ∀ k : Fin 4096, ridx_main_v8 (ix3 p s o) k = ix2 o k := fun k =>
    funext fun a => Fin.ext (by match a with | ⟨0, _⟩ => rfl | ⟨1, _⟩ => rfl)
  have eb : idx_main_v9 (idx_main_v10 (ix3 p s o)) = ix1 o :=
    funext fun a => Fin.ext (by match a with | ⟨0, _⟩ => rfl)
  rw [val_main_v12_apply, val_main_v11_apply, val_main_v8_apply, val_main_v10_apply, val_main_v9_apply]
  simp only [el, er, eb, Ideal.addf_def]
  rfl

/-- The mean column: at `(p, s)` it is the mean of the row before normalisation. The sum starts from the zero word, which
    is `0`. -/
theorem ref_mean (x0 : (⟨S16x512x4096, .f32⟩ : BufTy).Contents (Elt Ideal)) (x1 : (⟨S16x512x1024, .f32⟩ : BufTy).Contents (Elt Ideal))
    (x2 : (⟨S1024x4096, .f32⟩ : BufTy).Contents (Elt Ideal)) (x3 : (⟨S1024, .f32⟩ : BufTy).Contents (Elt Ideal))
    (p : Fin 16) (s : Fin 512) (u : Fin 1) :
    val_main_v16 (F := Ideal) x0 x1 x2 x3 (ix3 p s u)
      = Cert.Spec.mean (Cert.Spec.pre3 x0 x1 (val_main_v7 (F := Ideal) x2) x3 p s) := by
  have ek : ∀ k : Fin 1024, idx_main_v13 (idx_main_v14 (ix3 p s u)) k = ix3 p s k := fun k =>
    funext fun a => Fin.ext (by match a with | ⟨0, _⟩ => rfl | ⟨1, _⟩ => rfl | ⟨2, _⟩ => rfl)
  rw [val_main_v16_apply, val_main_v14_apply, val_main_v13_apply, val_main_v15_apply, val_main_cst_2_apply,
    val_main_cst_1_apply]
  simp only [ek, ref_pre, Ideal.hostDivf_def, Ideal.ofBits_def, Ideal.ofBits_zero_f32, zero_add]
  rfl

/-- The centred entry: the entry before normalisation minus the mean of its row. -/
theorem ref_centred (x0 : (⟨S16x512x4096, .f32⟩ : BufTy).Contents (Elt Ideal)) (x1 : (⟨S16x512x1024, .f32⟩ : BufTy).Contents (Elt Ideal))
    (x2 : (⟨S1024x4096, .f32⟩ : BufTy).Contents (Elt Ideal)) (x3 : (⟨S1024, .f32⟩ : BufTy).Contents (Elt Ideal))
    (p : Fin 16) (s : Fin 512) (o : Fin 1024) :
    val_main_v18 (F := Ideal) x0 x1 x2 x3 (ix3 p s o)
      = Cert.Spec.pre3 x0 x1 (val_main_v7 (F := Ideal) x2) x3 p s o
        - Cert.Spec.mean (Cert.Spec.pre3 x0 x1 (val_main_v7 (F := Ideal) x2) x3 p s) := by
  have e17 : idx_main_v17 (ix3 p s o) = ix3 p s (0 : Fin 1) :=
    funext fun a => Fin.ext (by match a with | ⟨0, _⟩ => rfl | ⟨1, _⟩ => rfl | ⟨2, _⟩ => rfl)
  rw [val_main_v18_apply, val_main_v17_apply, e17, ref_mean, ref_pre, Ideal.subf_def]

/-- The same centred entry, as the second subtraction of the program writes it. -/
theorem ref_centred' (x0 : (⟨S16x512x4096, .f32⟩ : BufTy).Contents (Elt Ideal)) (x1 : (⟨S16x512x1024, .f32⟩ : BufTy).Contents (Elt Ideal))
    (x2 : (⟨S1024x4096, .f32⟩ : BufTy).Contents (Elt Ideal)) (x3 : (⟨S1024, .f32⟩ : BufTy).Contents (Elt Ideal))
    (p : Fin 16) (s : Fin 512) (o : Fin 1024) :
    val_main_v25 (F := Ideal) x0 x1 x2 x3 (ix3 p s o)
      = Cert.Spec.pre3 x0 x1 (val_main_v7 (F := Ideal) x2) x3 p s o
        - Cert.Spec.mean (Cert.Spec.pre3 x0 x1 (val_main_v7 (F := Ideal) x2) x3 p s) := by
  have e24 : idx_main_v24 (ix3 p s o) = ix3 p s (0 : Fin 1) :=
    funext fun a => Fin.ext (by match a with | ⟨0, _⟩ => rfl | ⟨1, _⟩ => rfl | ⟨2, _⟩ => rfl)
  rw [val_main_v25_apply, val_main_v24_apply, e24, ref_mean, ref_pre, Ideal.subf_def]

/-- The variance column: at `(p, s)` it is the mean of the squared centred entries of the row. -/
theorem ref_var (x0 : (⟨S16x512x4096, .f32⟩ : BufTy).Contents (Elt Ideal)) (x1 : (⟨S16x512x1024, .f32⟩ : BufTy).Contents (Elt Ideal))
    (x2 : (⟨S1024x4096, .f32⟩ : BufTy).Contents (Elt Ideal)) (x3 : (⟨S1024, .f32⟩ : BufTy).Contents (Elt Ideal))
    (p : Fin 16) (s : Fin 512) (u : Fin 1) :
    val_main_v23 (F := Ideal) x0 x1 x2 x3 (ix3 p s u)
      = Cert.Spec.mean (fun o' =>
          (Cert.Spec.pre3 x0 x1 (val_main_v7 (F := Ideal) x2) x3 p s o'
            - Cert.Spec.mean (Cert.Spec.pre3 x0 x1 (val_main_v7 (F := Ideal) x2) x3 p s))
          * (Cert.Spec.pre3 x0 x1 (val_main_v7 (F := Ideal) x2) x3 p s o'
            - Cert.Spec.mean (Cert.Spec.pre3 x0 x1 (val_main_v7 (F := Ideal) x2) x3 p s))) := by
  have ek : ∀ k : Fin 1024, idx_main_v20 (idx_main_v21 (ix3 p s u)) k = ix3 p s k := fun k =>
    funext fun a => Fin.ext (by match a with | ⟨0, _⟩ => rfl | ⟨1, _⟩ => rfl | ⟨2, _⟩ => rfl)
  rw [val_main_v23_apply, val_main_v21_apply, val_main_v20_apply, val_main_v22_apply, val_main_cst_4_apply,
    val_main_cst_3_apply]
  simp only [ek, val_main_v19_apply, ref_centred, Ideal.mulf_def, Ideal.hostDivf_def, Ideal.ofBits_def,
    Ideal.ofBits_zero_f32, zero_add]
  rfl

/-- THE REFERENCE'S RESULT at `(p, s, o)` is the specification's normalised row of the row before normalisation, with the
    gain and the shift read at `o`. -/
theorem ref_out3 (x0 : (⟨S16x512x4096, .f32⟩ : BufTy).Contents (Elt Ideal)) (x1 : (⟨S16x512x1024, .f32⟩ : BufTy).Contents (Elt Ideal))
    (x2 : (⟨S1024x4096, .f32⟩ : BufTy).Contents (Elt Ideal)) (x3 x4 x5 : (⟨S1024, .f32⟩ : BufTy).Contents (Elt Ideal))
    (p : Fin 16) (s : Fin 512) (o : Fin 1024) :
    Cert.ReferenceIdeal.Read.val_main_v36 (F := Ideal) x0 x1 x2 x3 x4 x5 (ix3 p s o)
      = Cert.Spec.out3 x0 x1 (Cert.ReferenceIdeal.Read.val_main_v7 (F := Ideal) x2) x3 x4 x5 p s o := by
  have eg : idx_main_v26 (idx_main_v27 (ix3 p s o)) = ix1 o :=
    funext fun a => Fin.ext (by match a with | ⟨0, _⟩ => rfl)
  have ebe : idx_main_v34 (idx_main_v35 (ix3 p s o)) = ix1 o :=
    funext fun a => Fin.ext (by match a with | ⟨0, _⟩ => rfl)
  have e32 : idx_main_v32 (ix3 p s o) = ix3 p s (0 : Fin 1) :=
    funext fun a => Fin.ext (by match a with | ⟨0, _⟩ => rfl | ⟨1, _⟩ => rfl | ⟨2, _⟩ => rfl)
  rw [val_main_v36_apply, val_main_v33_apply, val_main_v28_apply, val_main_v27_apply, val_main_v26_apply,
    val_main_v32_apply, val_main_v31_apply, val_main_v30_apply, val_main_v29_apply, val_main_cst_5_apply,
    val_main_v35_apply, val_main_v34_apply, eg, ebe, e32, ref_centred', ref_var]
  simp only [Ideal.addf_def, Ideal.mulf_def, Ideal.hostUnary_rsqrt_def, Ideal.ofBits_def]
  rfl

end Cert.RefSide

end
-- ==== Proof.lean ====
/-
  The five claims about a dense layer with residual and row normalisation, computed by a kernel and by its reference.

  Both programs take activations `[16, 512, 4096]`, a residual `[16, 512, 1024]`, a weight matrix `[1024, 4096]` and three
  vectors of length 1024 (bias, gain, shift). Both first replace each weight by its sign times its row's mean absolute
  value. Each output row `(p, s)` is then the normalised row of: the 4096-term inner products of the activations' row with
  the 1024 weight rows, plus the bias, plus the residual's row — mean subtracted, scaled by the gain and by the reciprocal
  square root of the mean squared deviation plus a small constant, shifted (`Cert.Spec.out3`).

  The kernel accumulates each inner product in four blocks of 1024 terms over a grid axis, starting from a zero block, and
  normalises at the fourth; the reference takes the 4096-term sum at once. Over the extended reals the two groupings are
  one sum (addition there is associative and commutative, infinities included), and every other operation is applied in
  the same order to the same operands, with the same float words for 4096, 1024 and the small constant. So the results
  agree entry by entry with no assumption on the inputs beyond what the frames need.

  The frames of the kernel and its idealization are the generated ones; the reference's is its generated run with the
  result dropped. The idealization rewrote nothing, so the fourth claim is trivial. For the fifth, the kernel's run ends
  with its result at `Cert.Final.res` (the accumulation over grid points, the blocks tiling the array, the re-layouts),
  the reference's with its result at its last stage, which entry by entry is the same `out3` (`Cert.RefSide.ref_out3`),
  the weight matrix being one array on both sides (`wq_eq`).
-/
import proofs.«126355_j90692529422554_2_alg».proof.Defs
import proofs.«126355_j90692529422554_2_alg».proof.Proof.Gen.Kernel
import proofs.«126355_j90692529422554_2_alg».proof.Proof.Gen.Kernel.Skeleton
import proofs.«126355_j90692529422554_2_alg».proof.Proof.Gen.Kernel.Launch
import proofs.«126355_j90692529422554_2_alg».proof.Proof.Gen.Kernel.Points
import proofs.«126355_j90692529422554_2_alg».proof.Proof.Gen.Kernel.Frame
import proofs.«126355_j90692529422554_2_alg».proof.Proof.Gen.KernelIdeal
import proofs.«126355_j90692529422554_2_alg».proof.Proof.Gen.KernelIdeal.Skeleton
import proofs.«126355_j90692529422554_2_alg».proof.Proof.Gen.KernelIdeal.Launch
import proofs.«126355_j90692529422554_2_alg».proof.Proof.Gen.KernelIdeal.Points
import proofs.«126355_j90692529422554_2_alg».proof.Proof.Gen.KernelIdeal.Frame
import proofs.«126355_j90692529422554_2_alg».proof.Proof.Gen.ReferenceIdeal
import proofs.«126355_j90692529422554_2_alg».proof.Proof.Gen.ReferenceIdeal.Run
import proofs.«126355_j90692529422554_2_alg».proof.Proof.Gen.ReferenceIdeal.Read
import proofs.«126355_j90692529422554_2_alg».proof.Proof.Gen.Pre_finite_inputs
import proofs.«126355_j90692529422554_2_alg».proof.Proof.Final
import proofs.«126355_j90692529422554_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The weight matrix the kernel's program prepares before its region and the one the reference multiplies by are the same
    array of the weights: the same operations in the same order, a change of float format being the identity on the
    extended reals. -/
theorem wq_eq (W : Vec Ideal Cert.KernelIdeal.S1024x4096 .f32) :
    Cert.Final.wq W = Cert.ReferenceIdeal.Read.val_main_v7 (F := Ideal) W := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end, the kernel's result at `Cert.Final.res` and the
    reference's at its last stage: entry by entry the same `out3` of the arguments. -/
theorem algebraic : Cert.algebraic_KernelIdeal_ReferenceIdeal := by
  intro m ρ m' ρ' _ hagree
  refine ⟨fun c => Cert.Final.res m c, Cert.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2.1, (hagree c).2.2.2.2.2]
  funext j
  obtain ⟨p, s, o, rfl⟩ : ∃ (p : Fin 16) (s : Fin 512) (o : Fin 1024), j = ix3 p s o := ⟨j 0, j 1, j 2, eq_ix3 j⟩
  rw [Cert.RefSide.ref_out3, ← wq_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
